-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1200000 : Shape := ⟨1, ![1200000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S1200000 32) (main_arg2 : IVec S1200000 32) (main_arg3 : FVec F S256x64 .f32) (main_arg4 : FVec F S64 .f32) (main_arg5 : FVec F S64x2 .f32) (main_arg6 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg5
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg6 main_v13 main_v16
-- ==== Kernel.lean ====
abbrev S100000x256 : Shape := ⟨2, ![100000, 256]⟩
abbrev S1200000 : Shape := ⟨1, ![1200000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1x64 : Shape := ⟨2, ![1, 64]⟩
abbrev S1x2 : Shape := ⟨2, ![1, 2]⟩
abbrev S100000x64 : Shape := ⟨2, ![100000, 64]⟩
abbrev S5000x256 : Shape := ⟨2, ![5000, 256]⟩
abbrev S5000x64 : Shape := ⟨2, ![5000, 64]⟩
abbrev S1200000x64 : Shape := ⟨2, ![1200000, 64]⟩
abbrev S100000x2 : Shape := ⟨2, ![100000, 2]⟩
abbrev S5000x1 : Shape := ⟨2, ![5000, 1]⟩
abbrev S5000x2 : Shape := ⟨2, ![5000, 2]⟩
abbrev S1200000x2 : Shape := ⟨2, ![1200000, 2]⟩

abbrev nBuf : Space → Nat
  | .hbm => 76
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S1200000, .i32⟩
  | .hbm, ⟨2, _⟩ => ⟨S1200000, .i32⟩
  | .hbm, ⟨3, _⟩ => ⟨S256x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000, .f32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S1200000, .f32⟩
  | .hbm, ⟨35, _⟩ => ⟨S1200000, .f32⟩
  | .hbm, ⟨36, _⟩ => ⟨S100000, .f32⟩
  | .hbm, ⟨37, _⟩ => ⟨S100000x1, .f32⟩
  | .hbm, ⟨38, _⟩ => ⟨S1x64, .f32⟩
  | .hbm, ⟨39, _⟩ => ⟨S1x2, .f32⟩
  | .hbm, ⟨40, _⟩ => ⟨S100000x64, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S1200000x1, .f32⟩
  | .hbm, ⟨51, _⟩ => ⟨S1200000x64, .f32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S100000x64, .f32⟩
  | .hbm, ⟨58, _⟩ => ⟨S100000x2, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x2, .f32⟩
  | .hbm, ⟨68, _⟩ => ⟨S1200000x1, .f32⟩
  | .hbm, ⟨69, _⟩ => ⟨S1200000x2, .f32⟩
  | .hbm, ⟨70, _⟩ => ⟨S1200000x2, .f32⟩
  | .hbm, ⟨71, _⟩ => ⟨S_, .f32⟩
  | .hbm, ⟨72, _⟩ => ⟨S100000x2, .f32⟩
  | .hbm, ⟨73, _⟩ => ⟨S1200000x1, .i32⟩
  | .hbm, ⟨74, _⟩ => ⟨S100000x2, .f32⟩
  | .hbm, ⟨75, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x2, .f32⟩
  | .local _ .vmem, ⟨13, _⟩ => ⟨S5000x64, .f32⟩
  | .local _ .vmem, ⟨14, _⟩ => ⟨S5000x64, .f32⟩
  | .local _ .vmem, ⟨15, _⟩ => ⟨S5000x2, .f32⟩
  | .local _ .vmem, ⟨16, _⟩ => ⟨S5000x2, .f32⟩
  | .local _ .vmem, ⟨17, _⟩ => ⟨S5000x2, .f32⟩
  | .local _ .vmem, ⟨18, _⟩ => ⟨S5000x2, .f32⟩
  | .local _ .vmem, ⟨19, _⟩ => ⟨S5000x2, .f32⟩
  | .local _ .vmem, ⟨20, _⟩ => ⟨S5000x2, .f32⟩
  | .local _ .vmem, ⟨21, _⟩ => ⟨S5000x1, .f32⟩
  | .local _ .vmem, ⟨22, _⟩ => ⟨S5000x1, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  shapeCasts_S64_S1x64 : S64.ShapeCasts S1x64
  shapeCasts_S2_S1x2 : S2.ShapeCasts S1x2
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1200000x1_S1200000x2_0_1 : S1200000x1.BroadcastsInDim S1200000x2 (![0, 1] : Fin 2 → Fin S1200000x2.rank)
  bcast_S_S100000x2 : S_.BroadcastsInDim S100000x2 (![] : Fin 0 → Fin S100000x2.rank)
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x256_S256x64_S5000x64_1_0_0_1_n_n_wf : DotDims.WF S5000x256 S256x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x2_S5000x2_1_0_0_1_n_n_wf : DotDims.WF S5000x64 S64x2 S5000x2 [1] [0] [0] [1] [] []
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x2.size a ≤ S64x2.size a
  hwx1_4 : ∀ i : grid1.Coords, EltTy.bits .f32 = 32 ∨ (Rect.block (s := S64x2) S64x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_1) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_1) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S1200000 : Shape := ⟨1, ![1200000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S100000x64 : Shape := ⟨2, ![100000, 64]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S100000x2 : Shape := ⟨2, ![100000, 2]⟩
abbrev S1200000x2 : Shape := ⟨2, ![1200000, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1200000, .i32⟩
  | .hbm, ⟨2, _⟩ => ⟨S1200000, .i32⟩
  | .hbm, ⟨3, _⟩ => ⟨S256x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S100000x64, .f32⟩
  | .hbm, ⟨8, _⟩ => ⟨S_, .f32⟩
  | .hbm, ⟨9, _⟩ => ⟨S1200000, .f32⟩
  | .hbm, ⟨10, _⟩ => ⟨S_, .f32⟩
  | .hbm, ⟨11, _⟩ => ⟨S100000, .f32⟩
  | .hbm, ⟨12, _⟩ => ⟨S1200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S1200000, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000, .f32⟩
  | .hbm, ⟨36, _⟩ => ⟨S1200000, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S1200000x1, .f32⟩
  | .hbm, ⟨47, _⟩ => ⟨S1200000x64, .f32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S100000, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x2, .f32⟩
  | .hbm, ⟨65, _⟩ => ⟨S_, .f32⟩
  | .hbm, ⟨66, _⟩ => ⟨S1200000, .f32⟩
  | .hbm, ⟨67, _⟩ => ⟨S_, .f32⟩
  | .hbm, ⟨68, _⟩ => ⟨S100000, .f32⟩
  | .hbm, ⟨69, _⟩ => ⟨S1200000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1200000, .i32⟩
  | .hbm, ⟨77, _⟩ => ⟨S1200000, .i1⟩
  | .hbm, ⟨78, _⟩ => ⟨S_, .i32⟩
  | .hbm, ⟨79, _⟩ => ⟨S1200000, .i32⟩
  | .hbm, ⟨80, _⟩ => ⟨S1200000, .i32⟩
  | .hbm, ⟨81, _⟩ => ⟨S1200000, .i32⟩
  | .hbm, ⟨82, _⟩ => ⟨S1200000x1, .i32⟩
  | .hbm, ⟨83, _⟩ => ⟨S1200000, .f32⟩
  | .hbm, ⟨84, _⟩ => ⟨S_, .i32⟩
  | .hbm, ⟨85, _⟩ => ⟨S1200000, .i32⟩
  | .hbm, ⟨86, _⟩ => ⟨S1200000, .i1⟩
  | .hbm, ⟨87, _⟩ => ⟨S_, .i32⟩
  | .hbm, ⟨88, _⟩ => ⟨S1200000, .i32⟩
  | .hbm, ⟨89, _⟩ => ⟨S1200000, .i32⟩
  | .hbm, ⟨90, _⟩ => ⟨S1200000, .i32⟩
  | .hbm, ⟨91, _⟩ => ⟨S1200000x1, .i32⟩
  | .hbm, ⟨92, _⟩ => ⟨S1200000, .f32⟩
  | .hbm, ⟨93, _⟩ => ⟨S1200000, .f32⟩
  | .hbm, ⟨94, _⟩ => ⟨S_, .i32⟩
  | .hbm, ⟨95, _⟩ => ⟨S1200000, .i32⟩
  | .hbm, ⟨96, _⟩ => ⟨S1200000, .i1⟩
  | .hbm, ⟨97, _⟩ => ⟨S_, .i32⟩
  | .hbm, ⟨98, _⟩ => ⟨S1200000, .i32⟩
  | .hbm, ⟨99, _⟩ => ⟨S1200000, .i32⟩
  | .hbm, ⟨100, _⟩ => ⟨S1200000, .i32⟩
  | .hbm, ⟨101, _⟩ => ⟨S1200000x1, .i32⟩
  | .hbm, ⟨102, _⟩ => ⟨S1200000x2, .f32⟩
  | .hbm, ⟨103, _⟩ => ⟨S1200000x1, .f32⟩
  | .hbm, ⟨104, _⟩ => ⟨S1200000x2, .f32⟩
  | .hbm, ⟨105, _⟩ => ⟨S1200000x2, .f32⟩
  | .hbm, ⟨106, _⟩ => ⟨S_, .f32⟩
  | .hbm, ⟨107, _⟩ => ⟨S100000x2, .f32⟩
  | .hbm, ⟨108, _⟩ => ⟨S1200000x1, .i32⟩
  | .hbm, ⟨109, _⟩ => ⟨S100000x2, .f32⟩
  | .hbm, ⟨110, _⟩ => ⟨S100000, .f32⟩
  | .hbm, ⟨111, _⟩ => ⟨S100000x1, .f32⟩
  | .hbm, ⟨112, _⟩ => ⟨S100000x2, .f32⟩
  | .hbm, ⟨113, _⟩ => ⟨S100000x2, .f32⟩
  | .hbm, ⟨114, _⟩ => ⟨S100000x2, .f32⟩
  | .hbm, ⟨115, _⟩ => ⟨S1x2, .f32⟩
  | .hbm, ⟨116, _⟩ => ⟨S100000x2, .f32⟩
  | .hbm, ⟨117, _⟩ => ⟨S100000x2, .f32⟩
  | .hbm, ⟨118, _⟩ => ⟨S_, .f32⟩
  | .hbm, ⟨119, _⟩ => ⟨S100000x2, .f32⟩
  | .hbm, ⟨120, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_15 : Ref sig .tc := ⟨.hbm, 94, rfl⟩
abbrev main_v68 : Ref sig .tc := ⟨.hbm, 95, rfl⟩
abbrev main_v69 : Ref sig .tc := ⟨.hbm, 96, rfl⟩
abbrev main_c_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_call1_cst : Ref sig .tc := ⟨.hbm, 118, rfl⟩
abbrev main_call1_v0 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1200000x1_S1200000x2_0_1 : S1200000x1.BroadcastsInDim S1200000x2 (![0, 1] : Fin 2 → Fin S1200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x256_S256x64_S100000x64_1_0_0_1_n_n_wf : DotDims.WF S100000x256 S256x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x2_S100000x2_1_0_0_1_n_n_wf : DotDims.WF S100000x64 S64x2 S100000x2 [1] [0] [0] [1] [] []
  gather_S100000x2_S1200000x1_S1200000x2_1_0_n_n_0_1_12_wf : GatherDims.WF S100000x2 S1200000x1 S1200000x2 [1] [0] [] [0] [] 1 ![1, 2]
  scatter_S100000x2_S1200000x1_S1200000x2_1_0_0_1_wf : ScatterDims.WF S100000x2 S1200000x1 S1200000x2 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1200000x1_S1200000x2_1_0_n_n_0_1_12 : GatherDims S100000x2 S1200000x1 S1200000x2 where
  offsetDims := [1]
  collapsedSliceDims := [0]
  operandBatchingDims := []
  startIndicesBatchingDims := []
  startIndexMap := [0]
  indexVectorDim := 1
  sliceSizes := ![1, 2]
  wf := gather_S100000x2_S1200000x1_S1200000x2_1_0_n_n_0_1_12_wf
def scatter_S100000x2_S1200000x1_S1200000x2_1_0_0_1 : ScatterDims S100000x2 S1200000x1 S1200000x2 where
  updateWindowDims := [1]
  insertedWindowDims := [0]
  scatterDimsToOperandDims := [0]
  indexVectorDim := 1
  wf := scatter_S100000x2_S1200000x1_S1200000x2_1_0_0_1_wf

class Facts : Prop extends Facts₀ where

variable [Facts]
-- ==== Proof.KernelRun.lean ====
/-
  The idealized kernel's run, with its result buffer named. The program is three grid launches among stretches of host
  operations; its buffers' contents at the seven boundaries are a fold from the launch memory (a host stretch applies its
  operations, a launch replaces its output arrays by what its write-backs leave). Every weakly fair execution terminates
  with every unscoped buffer at the last boundary's contents: so the result array is the last fold at its own buffer,
  and each argument array is what it was at launch (no stretch and no launch writes one).
-/
import proofs.«113560_j52974126629470_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result array at the last boundary's contents and the seven argument arrays as launched. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Run

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Bodies.lean ====
/-
  What the three kernel bodies store, read at an index over the exact extended reals (a change of float format is the
  identity there, a matrix product into a zero accumulator is the plain contraction sum).
  * the projection body stores, at row `p` and column `q` of its block, `∑ k, x (p, k) · w (k, q)`;
  * a layer's closing body stores `max ((a (p, q) + h (p, q) · d (p, 0)) + b (0, q)) 0` — the neighbour sum `a`, the node's
    own projected features `h` weighted by its one-column self-loop weight `d`, the one-row bias `b`, clamped below at zero —
    and the first layer's closing body also stores that value's product with the second weight matrix.
-/
import proofs.«113560_j52974126629470_1_alg».proof.Proof.Gen.KernelIdeal.Skeleton
import proofs.«113560_j52974126629470_1_alg».proof.Proof.LibPlainProduct
import proofs.«113560_j52974126629470_1_alg».proof.Proof.LibColumnBroadcast
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx

/-- The projection body: row `p` of the node block against column `q` of the weights. -/
theorem projection_at (x : Vec Ideal S5000x256 .f32) (w : Vec Ideal S256x64 .f32) (p : Fin 5000) (q : Fin 64) :
    k0_pay1 (F := Ideal) x w (ix2 p q) = ∑ k : Fin 256, x (ix2 p k) * w (ix2 k q) := by
  unfold k0_pay1
  exact matmul_zero_plain_apply dot_S5000x256_S256x64_S5000x64_1_0_0_1_n_n rfl rfl rfl rfl rfl rfl none
    (truncf .bf16 x bitsLt_bf16_f32) (truncf .bf16 w bitsLt_bf16_f32) p q

/-- The first layer's closing value at `(p, q)`. -/
theorem closing1_at (d : Vec Ideal S5000x1 .f32) (a h : Vec Ideal S5000x64 .f32) (b : Vec Ideal S1x64 .f32)
    (p : Fin 5000) (q : Fin 64) :
    k1_pay1 (F := Ideal) d a h b (ix2 p q)
      = max ((a (ix2 p q) + h (ix2 p q) * d (ix2 p (0 : Fin 1))) + b (ix2 (0 : Fin 1) q)) (Ideal.ofBits .f32 0x00000000#32) := by
  unfold k1_pay1
  simp only [maximumf_apply, addf_apply, mulf_apply, broadcast_apply, shapeCast_self, broadcastTo_a1_ab_apply,
    broadcastTo_1b_ab_apply]
  rfl

/-- The first layer's second stored value: the closing value's row `p` against column `q` of the second weights. -/
theorem projection2_at (d : Vec Ideal S5000x1 .f32) (a h : Vec Ideal S5000x64 .f32) (b : Vec Ideal S1x64 .f32)
    (w : Vec Ideal S64x2 .f32) (p : Fin 5000) (q : Fin 2) :
    k1_pay2 (F := Ideal) d a h b w (ix2 p q) = ∑ k : Fin 64, k1_pay1 (F := Ideal) d a h b (ix2 p k) * w (ix2 k q) := by
  unfold k1_pay2
  exact matmul_zero_plain_apply dot_S5000x64_S64x2_S5000x2_1_0_0_1_n_n rfl rfl rfl rfl rfl rfl none
    (truncf .bf16 (k1_pay1 (F := Ideal) d a h b) bitsLt_bf16_f32) (truncf .bf16 w bitsLt_bf16_f32) p q

/-- The second layer's closing value at `(p, q)`. -/
theorem closing2_at (d : Vec Ideal S5000x1 .f32) (a h : Vec Ideal S5000x2 .f32) (b : Vec Ideal S1x2 .f32)
    (p : Fin 5000) (q : Fin 2) :
    k2_pay1 (F := Ideal) d a h b (ix2 p q)
      = max ((a (ix2 p q) + h (ix2 p q) * d (ix2 p (0 : Fin 1))) + b (ix2 (0 : Fin 1) q)) (Ideal.ofBits .f32 0x00000000#32) := by
  unfold k2_pay1
  simp only [maximumf_apply, addf_apply, mulf_apply, broadcast_apply, shapeCast_self, broadcastTo_a1_ab_apply,
    broadcastTo_1b_ab_apply]
  rfl

end Cert.KernelIdeal.Bodies

end
-- ==== Proof.Spec.lean ====
/-
  The two whole-array functions a graph-convolution layer is made of, over the exact extended reals.
  * `product x w`: rows against columns, entry `(p, q)` is `∑ k, x (p, k) · w (k, q)`.
  * `closing a h d b`: entry `(p, q)` is `max ((a (p, q) + h (p, q) · d (p, 0)) + b (0, q)) 0` — to the sum `a` over a node's
    incoming edges add the node's own projected features `h`, weighted by its self-loop weight (one column `d`), then the
    bias (one row `b`), and clamp below at zero. The zero is kept as the float word it is printed as.
  A layer is `closing (edge sum of (product x w)) (product x w) d b`; both programs compute two of them, the edge sums by the
  same host operations, so they differ only in how the node axis is cut into blocks.
-/
import Idealize.ShloMosaic.Lib.ValueIdx
import Idealize.ShloMosaic.PureOps.Ideal.Laws

noncomputable section

namespace Cert.Gcn

open Idealize.ShloMosaic Idealize.ShloMosaic.ValueIdx

/-- Rows against columns. -/
def product {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem product_at {M K N : ℕ} (x : (⟨2, ![M, K]⟩ : Shape).Idx → EReal) (w : (⟨2, ![K, N]⟩ : Shape).Idx → EReal)
    (p : Fin M) (q : Fin N) : product x w (ix2 p q) = ∑ k : Fin K, x (ix2 p k) * w (ix2 k q) := rfl

/-- A layer's closing step. -/
def closing {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => max ((a i + h i * d (ix2 (i 0) (0 : Fin 1))) + b (ix2 (0 : Fin 1) (i 1))) (Ideal.ofBits .f32 0x00000000#32)

theorem closing_at {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    closing a h d b (ix2 p q)
      = max ((a (ix2 p q) + h (ix2 p q) * d (ix2 p (0 : Fin 1))) + b (ix2 (0 : Fin 1) q)) (Ideal.ofBits .f32 0x00000000#32) := rfl

end Cert.Gcn

end
-- ==== Proof.Projection.lean ====
/-
  The first launch: the node features' projection, block by block, is the whole product.
  The grid has 20 points; point `t` is handed rows `5000·t … 5000·t + 4999` of the node features and the whole weight
  matrix, and writes back rows `5000·t …` of the result. Entry `(p, q)` of that block is row `p` of the block against
  column `q` of the weights, which is row `5000·t + p` of the whole array against that column: each written block is the
  whole product restricted to it, and the 20 blocks cover every row (`r` lies in block `r / 5000`).
-/
import proofs.«113560_j52974126629470_1_alg».proof.Proof.Gen.KernelIdeal.Frame
import proofs.«113560_j52974126629470_1_alg».proof.Proof.Bodies
import proofs.«113560_j52974126629470_1_alg».proof.Proof.Spec
import Idealize.ShloMosaic.Lib.Pipeline.Value
import Idealize.ShloMosaic.Lib.ValueIdx

set_option maxRecDepth 16384

noncomputable section

namespace Cert.KernelIdeal.Projection

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at `(p, q)` is the whole product at `i`, when the node block's row `p` is the whole array's row
    `i 0` and the weight block's column `q` is the whole weights' column `i 1`. -/
theorem block_value (X : (⟨2, ![100000, 256]⟩ : Shape).Idx → EReal) (W : (⟨2, ![256, 64]⟩ : Shape).Idx → EReal)
    (x : Vec Ideal S5000x256 .f32) (w : Vec Ideal S256x64 .f32) (p : Fin 5000) (q : Fin 64)
    (i : (⟨2, ![100000, 64]⟩ : Shape).Idx)
    (hx : ∀ k : Fin 256, x (ix2 p k) = X (ix2 (i 0) k)) (hw : ∀ k : Fin 256, w (ix2 k q) = W (ix2 k (i 1))) :
    k0_pay1 (F := Ideal) x w (ix2 p q) = product X W i := by
  rw [Bodies.projection_at]
  exact Finset.sum_congr rfl fun k _ => by rw [hx k, hw k]

/-- The block index maps over the grid: the node block and the result block move together down the rows, the weights stay. -/
theorem block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 20 row blocks is some point's. -/
theorem block_onto : ∀ r : Fin 20, ∃ t : Fin cfg0.N, win0_2.index t = ![r.val, 0] :=
  (by decide +kernel : ∀ r : Fin 20, ∃ t : Fin grid0.N, win0_2.index t = ![r.val, 0])

/-- What point `t` writes back is block `t` of the whole product of the arrays the launch finds. -/
theorem written (c : Dev nD) (t : Fin cfg0.N) :
    (dat0 V c).flushed 2 t
      = ((cfg0.win 2).blk t).view.read (Elt Ideal)
          (product (M := 100000) (K := 256) (N := 64) (V c main_arg0) (V c main_arg3)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x64) origin]
  funext j
  obtain ⟨p, q, rfl⟩ : ∃ (p : Fin 5000) (q : Fin 64), j = ix2 p q := ⟨j 0, j 1, eq_ix2 j⟩
  obtain ⟨e0, e1, e2, e3, e4⟩ := block_index t
  show k0_pay1 (iblk0 V c 0 t) (iblk0 V c 1 t) (ix2 p q)
    = product (M := 100000) (K := 256) (N := 64) (V c main_arg0) (V c main_arg3) (((cfg0.win 2).blk t).view.emb (ix2 p q))
  refine block_value (V c main_arg0) (V c main_arg3) _ _ p q _ (fun k => ?_) (fun k => ?_)
  · refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · refine congrArg (V c main_arg3) (funext fun a => Fin.ext ?_)
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega

/-- An index of the result array is in point `t`'s block iff each coordinate is in the block's range on its axis. -/
theorem mem_block (t : Fin cfg0.N) (i : S100000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v26).slice (win0_2.rect t)).set ↔ _
  rw [View.set_slice_whole, Rect.mem_set_unit]
  exact Iff.rfl

/-- Every index of the result array is in some point's block: row `r` is in block `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the launch is the whole product of the arrays the launch finds. -/
theorem result (c : Dev nD) :
    (dat0 V c).arrAt 2 cfg0.N = product (M := 100000) (K := 256) (N := 64) (V c main_arg0) (V c main_arg3) :=
  (dat0 V c).arrAt_eq_of_cover 2 _ (fun t _ => written V c t) covered

end Cert.KernelIdeal.Projection

end
-- ==== Proof.LibColumnReshape.lean ====
/-
  A vector recast as a one-column matrix, read at an index: an `[a]` array cast to `[a, 1]` reads, at `(p, u)`, the
  operand at `p`, whatever the unit coordinate `u` (row-major positions: `p · 1 + 0 = p`). The companion of the library's
  `shapeCast_a_1a_apply` (one row); extent general.
-/
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.RefLayers.lean ====
/-
  The reference's two layers are the same two whole-array functions.
  Read one operation at a time, index by index: its first `dot_general` is `product` of the node features and the first
  weights; its first `relu` is `closing` of the edge sums, that product, the self-loop weights as one column and the
  bias as one row (the reference broadcasts a vector to `[n, 1]` and then along the rows, or to `[1, c]` and then down the
  columns, which reads the vector at the row, or at the column: the same entries the one-column and one-row arrays hold);
  its second `dot_general` is `product` of that with the second weights; its result is `closing` again. The reference
  computes the self-loop weights twice, by the same operations of the same argument.
-/
import proofs.«113560_j52974126629470_1_alg».proof.Proof.Gen.ReferenceIdeal.Read
import proofs.«113560_j52974126629470_1_alg».proof.Proof.Spec
import proofs.«113560_j52974126629470_1_alg».proof.Proof.LibColumnReshape
import Idealize.ShloMosaic.Lib.ValueLayout

set_option maxRecDepth 16384

noncomputable section

namespace Cert.ReferenceIdeal.Layers

open Cert.ReferenceIdeal Cert.ReferenceIdeal.Read Cert.Gcn
open Idealize.ShloMosaic Idealize.ShloMosaic.ValueIdx

variable (x0 : (⟨S100000x256, .f32⟩ : BufTy).Contents (Elt Ideal)) (x1 x2 : (⟨S1200000, .i32⟩ : BufTy).Contents (Elt Ideal))
  (x3 : (⟨S256x64, .f32⟩ : BufTy).Contents (Elt Ideal)) (x4 : (⟨S64, .f32⟩ : BufTy).Contents (Elt Ideal))
  (x5 : (⟨S64x2, .f32⟩ : BufTy).Contents (Elt Ideal)) (x6 : (⟨S2, .f32⟩ : BufTy).Contents (Elt Ideal))

/-- The first projection. -/
theorem projection1 : val_main_v0 (F := Ideal) x0 x3 = product (M := 100000) (K := 256) (N := 64) x0 x3 := by
  funext i
  obtain ⟨p, q, rfl⟩ : ∃ (p : Fin 100000) (q : Fin 64), i = ix2 p q := ⟨i 0, i 1, eq_ix2 i⟩
  rw [val_main_v0_apply, product_at]
  refine Finset.sum_congr rfl fun k _ => ?_
  have el : lidx_main_v0 (ix2 p q) k = ix2 p k := funext fun a => by match a with | ⟨0, _⟩ => rfl | ⟨1, _⟩ => rfl
  have er : ridx_main_v0 (ix2 p q) k = ix2 k q := funext fun a => by match a with | ⟨0, _⟩ => rfl | ⟨1, _⟩ => rfl
  rw [el, er]

/-- The first layer's closing step. -/
theorem closing1 (hc : S100000.ShapeCasts S100000x1) (hr : S64.ShapeCasts S1x64) :
    val_main_v44 (F := Ideal) x0 x1 x2 x3 x4
      = closing (M := 100000) (N := 64) (val_main_v35 (F := Ideal) x0 x1 x2 x3) (val_main_v0 (F := Ideal) x0 x3)
          (shapeCast S100000x1 (val_main_v36 (F := Ideal) x2) hc) (shapeCast S1x64 x4 hr) := by
  funext i
  obtain ⟨p, q, rfl⟩ : ∃ (p : Fin 100000) (q : Fin 64), i = ix2 p q := ⟨i 0, i 1, eq_ix2 i⟩
  rw [val_main_v44_apply, val_main_v43_apply, val_main_v40_apply, val_main_v39_apply, val_main_v38_apply,
    val_main_v37_apply, val_main_v42_apply, val_main_v41_apply, val_main_call0_v0_apply, val_main_call0_cst_apply]
  have ed : idx_main_v37 (idx_main_v38 (ix2 p q)) = ix1 p := funext fun a => by match a with | ⟨0, _⟩ => rfl
  have eb : idx_main_v41 (idx_main_v42 (ix2 p q)) = ix1 q := funext fun a => by match a with | ⟨0, _⟩ => rfl
  rw [ed, eb, closing_at, shapeCast_a_a1_apply, shapeCast_a_1a_apply]
  rfl

/-- The second projection. -/
theorem projection2 :
    val_main_v45 (F := Ideal) x0 x1 x2 x3 x4 x5
      = product (M := 100000) (K := 64) (N := 2) (val_main_v44 (F := Ideal) x0 x1 x2 x3 x4) x5 := by
  funext i
  obtain ⟨p, q, rfl⟩ : ∃ (p : Fin 100000) (q : Fin 2), i = ix2 p q := ⟨i 0, i 1, eq_ix2 i⟩
  rw [val_main_v45_apply, product_at]
  refine Finset.sum_congr rfl fun k _ => ?_
  have el : lidx_main_v45 (ix2 p q) k = ix2 p k := funext fun a => by match a with | ⟨0, _⟩ => rfl | ⟨1, _⟩ => rfl
  have er : ridx_main_v45 (ix2 p q) k = ix2 k q := funext fun a => by match a with | ⟨0, _⟩ => rfl | ⟨1, _⟩ => rfl
  rw [el, er]

/-- The second layer's closing step: the result. -/
theorem closing2 (hc : S100000.ShapeCasts S100000x1) (hr : S2.ShapeCasts S1x2) :
    val_main_v89 (F := Ideal) x0 x1 x2 x3 x4 x5 x6
      = closing (M := 100000) (N := 2) (val_main_v80 (F := Ideal) x0 x1 x2 x3 x4 x5) (val_main_v45 (F := Ideal) x0 x1 x2 x3 x4 x5)
          (shapeCast S100000x1 (val_main_v81 (F := Ideal) x2) hc) (shapeCast S1x2 x6 hr) := by
  funext i
  obtain ⟨p, q, rfl⟩ : ∃ (p : Fin 100000) (q : Fin 2), i = ix2 p q := ⟨i 0, i 1, eq_ix2 i⟩
  rw [val_main_v89_apply, val_main_v88_apply, val_main_v85_apply, val_main_v84_apply, val_main_v83_apply,
    val_main_v82_apply, val_main_v87_apply, val_main_v86_apply, val_main_call1_v0_apply, val_main_call1_cst_apply]
  have ed : idx_main_v82 (idx_main_v83 (ix2 p q)) = ix1 p := funext fun a => by match a with | ⟨0, _⟩ => rfl
  have eb : idx_main_v86 (idx_main_v87 (ix2 p q)) = ix1 q := funext fun a => by match a with | ⟨0, _⟩ => rfl
  rw [ed, eb, closing_at, shapeCast_a_a1_apply, shapeCast_a_1a_apply]
  rfl

/-- The self-loop weights and the edge weights of the second layer are the first layer's: the same operations of the same
    arguments. -/
theorem self_weights_again : val_main_v81 (F := Ideal) x2 = val_main_v36 (F := Ideal) x2 := rfl
theorem edge_weights_again : val_main_v67 (F := Ideal) x1 x2 = val_main_v22 (F := Ideal) x1 x2 := rfl

end Cert.ReferenceIdeal.Layers

end
-- ==== Proof.Boundary1.lean ====
/-
  The kernel's buffers after its opening host stretch and after the projection launch, against the reference's stages.
  The opening stretch computes, from the two edge-endpoint arrays alone, each node's degree-normalising factor, the edge
  weights (the product of the factors at an edge's two ends) and the self-loop weights (the factor squared, as one column),
  and lays the two biases out as one row each: the same host operations, of the same arguments, as the reference's. No
  host operation writes an argument array. The projection launch then leaves the whole product of the node features and
  the first weights, which is the reference's first `dot_general`.
-/
import proofs.«113560_j52974126629470_1_alg».proof.Proof.Gen.KernelIdeal.Frame
import proofs.«113560_j52974126629470_1_alg».proof.Proof.Gen.ReferenceIdeal.Read
import proofs.«113560_j52974126629470_1_alg».proof.Proof.Projection
import proofs.«113560_j52974126629470_1_alg».proof.Proof.RefLayers
import Idealize.ShloMosaic.Lib.StableHlo.Run

set_option maxRecDepth 16384

noncomputable section

namespace Cert.KernelIdeal.Boundary1

open Cert.KernelIdeal Cert.KernelIdeal.Gen Cert.Gcn
open Idealize.ShloMosaic Idealize.ShloMosaic.TcCoe Idealize.SL.Sem Idealize.ShloMosaic.StableHlo
open Cert.ReferenceIdeal.Read (val_main_v0 val_main_v22 val_main_v35 val_main_v36 val_main_v44 val_main_v45 val_main_v80 val_main_v89)
open Cert.ReferenceIdeal (Layers.projection1 Layers.closing1 Layers.projection2 Layers.closing2)

variable (m : (ℓ : Loc nD τ sig) → Buf (Elt Ideal) ℓ) (ρ : Dev nD → PrngReg) (c : Dev nD)

/-! ## After the opening host stretch -/

set_option maxHeartbeats 4000000 in
theorem at1_arg0 : (W1 m ρ c (Proc.devRef .tc main_arg0) : S100000x256.Idx → EReal) = m ((c : Thread nD τ).loc main_arg0) :=
  (by after_results_simp : StableHlo.after hostOps0 (W0 m ρ c) (Proc.devRef .tc main_arg0) = W0 m ρ c (Proc.devRef .tc main_arg0))

set_option maxHeartbeats 4000000 in
theorem at1_arg1 : (W1 m ρ c (Proc.devRef .tc main_arg1) : S1200000.Idx → BitVec 32) = m ((c : Thread nD τ).loc main_arg1) :=
  (by after_results_simp : StableHlo.after hostOps0 (W0 m ρ c) (Proc.devRef .tc main_arg1) = W0 m ρ c (Proc.devRef .tc main_arg1))

set_option maxHeartbeats 4000000 in
theorem at1_arg2 : (W1 m ρ c (Proc.devRef .tc main_arg2) : S1200000.Idx → BitVec 32) = m ((c : Thread nD τ).loc main_arg2) :=
  (by after_results_simp : StableHlo.after hostOps0 (W0 m ρ c) (Proc.devRef .tc main_arg2) = W0 m ρ c (Proc.devRef .tc main_arg2))

set_option maxHeartbeats 4000000 in
theorem at1_arg3 : (W1 m ρ c (Proc.devRef .tc main_arg3) : S256x64.Idx → EReal) = m ((c : Thread nD τ).loc main_arg3) :=
  (by after_results_simp : StableHlo.after hostOps0 (W0 m ρ c) (Proc.devRef .tc main_arg3) = W0 m ρ c (Proc.devRef .tc main_arg3))

set_option maxHeartbeats 4000000 in
theorem at1_arg5 : (W1 m ρ c (Proc.devRef .tc main_arg5) : S64x2.Idx → EReal) = m ((c : Thread nD τ).loc main_arg5) :=
  (by after_results_simp : StableHlo.after hostOps0 (W0 m ρ c) (Proc.devRef .tc main_arg5) = W0 m ρ c (Proc.devRef .tc main_arg5))

set_option maxHeartbeats 4000000 in
/-- The edge weights. -/
theorem at1_edge : (W1 m ρ c (Proc.devRef .tc main_v21) : S1200000.Idx → EReal) = val_main_v22 (F := Ideal) (m ((c : Thread nD τ).loc main_arg1)) (m ((c : Thread nD τ).loc main_arg2)) := by
  show StableHlo.after hostOps0 (W0 m ρ c) (Proc.devRef .tc main_v21) = _
  after_results_simp
  rfl

set_option maxHeartbeats 4000000 in
/-- The self-loop weights, as one column. -/
theorem at1_self (hc : S100000.ShapeCasts S100000x1) :
    (W1 m ρ c (Proc.devRef .tc main_v23) : S100000x1.Idx → EReal) = shapeCast S100000x1 (val_main_v36 (F := Ideal) (m ((c : Thread nD τ).loc main_arg2))) hc := by
  show StableHlo.after hostOps0 (W0 m ρ c) (Proc.devRef .tc main_v23) = _
  after_results_simp
  rfl

set_option maxHeartbeats 4000000 in
/-- The first bias, as one row. -/
theorem at1_bias1 (hr : S64.ShapeCasts S1x64) :
    (W1 m ρ c (Proc.devRef .tc main_v24) : S1x64.Idx → EReal) = shapeCast S1x64 (m ((c : Thread nD τ).loc main_arg4)) hr := by
  show StableHlo.after hostOps0 (W0 m ρ c) (Proc.devRef .tc main_v24) = _
  after_results_simp
  rfl

set_option maxHeartbeats 4000000 in
/-- The second bias, as one row. -/
theorem at1_bias2 (hr : S2.ShapeCasts S1x2) :
    (W1 m ρ c (Proc.devRef .tc main_v25) : S1x2.Idx → EReal) = shapeCast S1x2 (m ((c : Thread nD τ).loc main_arg6)) hr := by
  show StableHlo.after hostOps0 (W0 m ρ c) (Proc.devRef .tc main_v25) = _
  after_results_simp
  rfl

/-! ## After the projection launch: its result array is the product; every other buffer is as it was -/

/-- The projected features. -/
theorem at2_proj : (W2 m ρ c (Proc.devRef .tc main_v26) : S100000x64.Idx → EReal) = val_main_v0 (F := Ideal) (m ((c : Thread nD τ).loc main_arg0)) (m ((c : Thread nD τ).loc main_arg3)) :=
  (W2_arr m ρ c 2).trans ((Projection.result (V1 m ρ) c).trans
    ((congrArg₂ (product (M := 100000) (K := 256) (N := 64)) (at1_arg0 m ρ c) (at1_arg3 m ρ c)).trans
      (Layers.projection1 _ _).symm))

theorem at2_arg1 : (W2 m ρ c (Proc.devRef .tc main_arg1) : S1200000.Idx → BitVec 32) = (m ((c : Thread nD τ).loc main_arg1)) :=
  (W2_of_ne m ρ c main_arg1 (by decide)).trans (at1_arg1 m ρ c)
theorem at2_arg2 : (W2 m ρ c (Proc.devRef .tc main_arg2) : S1200000.Idx → BitVec 32) = (m ((c : Thread nD τ).loc main_arg2)) :=
  (W2_of_ne m ρ c main_arg2 (by decide)).trans (at1_arg2 m ρ c)
theorem at2_arg5 : (W2 m ρ c (Proc.devRef .tc main_arg5) : S64x2.Idx → EReal) = (m ((c : Thread nD τ).loc main_arg5)) :=
  (W2_of_ne m ρ c main_arg5 (by decide)).trans (at1_arg5 m ρ c)
theorem at2_edge : (W2 m ρ c (Proc.devRef .tc main_v21) : S1200000.Idx → EReal) = val_main_v22 (F := Ideal) (m ((c : Thread nD τ).loc main_arg1)) (m ((c : Thread nD τ).loc main_arg2)) :=
  (W2_of_ne m ρ c main_v21 (by decide)).trans (at1_edge m ρ c)
theorem at2_self (hc : S100000.ShapeCasts S100000x1) :
    (W2 m ρ c (Proc.devRef .tc main_v23) : S100000x1.Idx → EReal) = shapeCast S100000x1 (val_main_v36 (F := Ideal) (m ((c : Thread nD τ).loc main_arg2))) hc :=
  (W2_of_ne m ρ c main_v23 (by decide)).trans (at1_self m ρ c hc)
theorem at2_bias1 (hr : S64.ShapeCasts S1x64) :
    (W2 m ρ c (Proc.devRef .tc main_v24) : S1x64.Idx → EReal) = shapeCast S1x64 (m ((c : Thread nD τ).loc main_arg4)) hr :=
  (W2_of_ne m ρ c main_v24 (by decide)).trans (at1_bias1 m ρ c hr)
theorem at2_bias2 (hr : S2.ShapeCasts S1x2) :
    (W2 m ρ c (Proc.devRef .tc main_v25) : S1x2.Idx → EReal) = shapeCast S1x2 (m ((c : Thread nD τ).loc main_arg6)) hr :=
  (W2_of_ne m ρ c main_v25 (by decide)).trans (at1_bias2 m ρ c hr)

end Cert.KernelIdeal.Boundary1

end
-- ==== Proof.Closing1.lean ====
/-
  The second launch: the first layer's closing step and the second projection, fused, block by block, are the whole
  product of the whole closing step with the second weights.
  The grid has 20 points; point `t` is handed rows `5000·t … 5000·t + 4999` of the edge sums, of the projected features
  and of the one-column self-loop weights, the whole one-row bias and the whole second weight matrix. Its second stored
  value at `(p, q)` is `∑ k, (closing value of the blocks at (p, k)) · w (k, q)`, and the closing value of the blocks at
  `(p, k)` is the whole closing step at `(5000·t + p, k)`: each written block is the whole function restricted to it,
  and the 20 blocks cover every row. (The first stored value, the closing step itself, is written to an array that
  nothing reads afterwards.)
-/
import proofs.«113560_j52974126629470_1_alg».proof.Proof.Gen.KernelIdeal.Frame
import proofs.«113560_j52974126629470_1_alg».proof.Proof.Bodies
import proofs.«113560_j52974126629470_1_alg».proof.Proof.Spec
import Idealize.ShloMosaic.Lib.Pipeline.Value
import Idealize.ShloMosaic.Lib.ValueIdx

set_option maxRecDepth 16384

noncomputable section

namespace Cert.KernelIdeal.Closing1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's second stored value at `(p, q)` is the whole function at `i`, when the blocks hold the whole arrays'
    entries that row `i 0` and column `i 1` call for. -/
theorem block_value (A H : (⟨2, ![100000, 64]⟩ : Shape).Idx → EReal) (D : (⟨2, ![100000, 1]⟩ : Shape).Idx → EReal)
    (B : (⟨2, ![1, 64]⟩ : Shape).Idx → EReal) (W : (⟨2, ![64, 2]⟩ : Shape).Idx → EReal)
    (a h : Vec Ideal S5000x64 .f32) (d : Vec Ideal S5000x1 .f32) (b : Vec Ideal S1x64 .f32) (w : Vec Ideal S64x2 .f32)
    (p : Fin 5000) (q : Fin 2) (i : (⟨2, ![100000, 2]⟩ : Shape).Idx)
    (ha : ∀ k : Fin 64, a (ix2 p k) = A (ix2 (i 0) k)) (hh : ∀ k : Fin 64, h (ix2 p k) = H (ix2 (i 0) k))
    (hd : d (ix2 p (0 : Fin 1)) = D (ix2 (i 0) (0 : Fin 1)))
    (hb : ∀ k : Fin 64, b (ix2 (0 : Fin 1) k) = B (ix2 (0 : Fin 1) k))
    (hw : ∀ k : Fin 64, w (ix2 k q) = W (ix2 k (i 1))) :
    k1_pay2 (F := Ideal) d a h b w (ix2 p q) = product (closing A H D B) W i := by
  rw [Bodies.projection2_at]
  refine Finset.sum_congr rfl fun k _ => ?_
  rw [Bodies.closing1_at, ha k, hh k, hd, hb k, hw k]
  rfl

/-- The block index maps over the grid: the three row-blocked inputs and the result move together down the rows, the bias
    and the second weights stay. -/
theorem block_index : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = win1_6.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_6.index t (1 : Fin 2) = 0 :=
  (by decide +kernel : ∀ t : Fin grid1.N, _)

/-- Every one of the 20 row blocks is some point's. -/
theorem block_onto : ∀ r : Fin 20, ∃ t : Fin cfg1.N, win1_6.index t = ![r.val, 0] :=
  (by decide +kernel : ∀ r : Fin 20, ∃ t : Fin grid1.N, win1_6.index t = ![r.val, 0])

/-- What point `t` writes back to the second result is block `t` of the whole function of the arrays the launch finds. -/
theorem written (c : Dev nD) (t : Fin cfg1.N) :
    (dat1 V c).flushed 6 t
      = ((cfg1.win 6).blk t).view.read (Elt Ideal)
          (product (M := 100000) (K := 64) (N := 2)
            (closing (M := 100000) (N := 64) (V c main_v39) (V c main_v26) (V c main_v23) (V c main_v24)) (V c main_arg5)) := by
  show (cfg1.win 6).cut (grid1.coords t) ((dat1 V c).after 6 t) = _
  rw [after1_6]
  unfold out1_6
  rw [View.canon_unit_zero origin]
  simp only [View.ld_unit_zero (S := S5000x1) origin, View.ld_unit_zero (S := S5000x64) origin,
    View.ld_unit_zero (S := S1x64) origin, View.ld_unit_zero (S := S64x2) origin]
  funext j
  obtain ⟨p, q, rfl⟩ : ∃ (p : Fin 5000) (q : Fin 2), j = ix2 p q := ⟨j 0, j 1, eq_ix2 j⟩
  obtain ⟨e0, e1, e2, e3, e4, e5, e6, e7, e8, e9, e10⟩ := block_index t
  show k1_pay2 (iblk1 V c 2 t) (iblk1 V c 0 t) (iblk1 V c 1 t) (iblk1 V c 3 t) (iblk1 V c 4 t) (ix2 p q)
    = product (M := 100000) (K := 64) (N := 2)
        (closing (M := 100000) (N := 64) (V c main_v39) (V c main_v26) (V c main_v23) (V c main_v24)) (V c main_arg5)
        (((cfg1.win 6).blk t).view.emb (ix2 p q))
  refine block_value (V c main_v39) (V c main_v26) (V c main_v23) (V c main_v24) (V c main_arg5) _ _ _ _ _ p q _
    (fun k => ?_) (fun k => ?_) ?_ (fun k => ?_) (fun k => ?_)
  · refine congrArg (V c main_v39) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * k.val = k.val; omega
  · refine congrArg (V c main_v26) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * k.val = k.val; omega
  · refine congrArg (V c main_v23) (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  · refine congrArg (V c main_v24) (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  · refine congrArg (V c main_arg5) (funext fun a => Fin.ext ?_)
    match a with
    | ⟨0, _⟩ => show win1_4.index t (0 : Fin 2) * 64 + 1 * k.val = k.val; omega
    | ⟨1, _⟩ => show win1_4.index t (1 : Fin 2) * 2 + 1 * q.val = win1_6.index t (1 : Fin 2) * 2 + 1 * q.val; omega

/-- An index of the second result array is in point `t`'s block iff each coordinate is in the block's range on its axis. -/
theorem mem_block (t : Fin cfg1.N) (i : S100000x2.Idx) :
    i ∈ ((cfg1.win 6).blk t).view.set
      ↔ ∀ a : Fin 2, win1_6.index t a * S5000x2.size a ≤ (i a).val ∧ (i a).val < win1_6.index t a * S5000x2.size a + S5000x2.size a := by
  show i ∈ ((View.whole main_v40_1).slice (win1_6.rect t)).set ↔ _
  rw [View.set_slice_whole, Rect.mem_set_unit]
  exact Iff.rfl

/-- Every index of the second result array is in some point's block: row `r` is in block `r / 5000`. -/
theorem covered (i : S100000x2.Idx) :
    ∃ t : Fin cfg1.N, (cfg1.win 6).flush t = true ∧ i ∈ ((cfg1.win 6).blk t).view.set := by
  have hi0 : (i 0).val < 100000 := (i 0).isLt
  have hi1 : (i 1).val < 2 := (i 1).isLt
  obtain ⟨t, ht⟩ := block_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 2 ≤ (i 1).val ∧ (i 1).val < win1_6.index t (1 : Fin 2) * 2 + 2; omega

/-- The second result array after the launch is the whole function of the arrays the launch finds. -/
theorem result (c : Dev nD) :
    (dat1 V c).arrAt 6 cfg1.N
      = product (M := 100000) (K := 64) (N := 2)
          (closing (M := 100000) (N := 64) (V c main_v39) (V c main_v26) (V c main_v23) (V c main_v24)) (V c main_arg5) :=
  (dat1 V c).arrAt_eq_of_cover 6 _ (fun t _ => written V c t) covered

end Cert.KernelIdeal.Closing1

end
-- ==== Proof.Boundary2.lean ====
/-
  The kernel's buffers after its second host stretch and after the second launch, against the reference's stages.
  The second stretch gathers each edge's source row of the projected features, scales it by the edge weight and adds it
  into the edge's destination row: the same host operations as the reference's, of arrays already shown equal to the
  reference's, so the edge sums are the reference's. It writes none of the arrays the launch reads besides. The second
  launch then leaves, in its second result, the product of the first layer's closing step with the second weights: the
  reference's second `dot_general` of its first `relu`.
-/
import proofs.«113560_j52974126629470_1_alg».proof.Proof.Boundary1
import proofs.«113560_j52974126629470_1_alg».proof.Proof.Closing1

set_option maxRecDepth 16384

noncomputable section

namespace Cert.KernelIdeal.Boundary2

open Cert.KernelIdeal Cert.KernelIdeal.Gen Cert.Gcn
open Idealize.ShloMosaic Idealize.ShloMosaic.TcCoe Idealize.SL.Sem Idealize.ShloMosaic.StableHlo
open Cert.ReferenceIdeal.Read (val_main_v0 val_main_v22 val_main_v35 val_main_v36 val_main_v44 val_main_v45 val_main_v80 val_main_v89)
open Cert.ReferenceIdeal (Layers.projection1 Layers.closing1 Layers.projection2 Layers.closing2)

variable (m : (ℓ : Loc nD τ sig) → Buf (Elt Ideal) ℓ) (ρ : Dev nD → PrngReg) (c : Dev nD)

open Cert.KernelIdeal.Boundary1

/-! ## After the second host stretch -/

set_option maxHeartbeats 4000000 in
/-- The first layer's edge sums. -/
theorem at3_sum : (W3 m ρ c (Proc.devRef .tc main_v39) : S100000x64.Idx → EReal) = val_main_v35 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v39) = _
  after_results_simp
  rw [at2_proj m ρ c, at2_edge m ρ c, at2_arg1 m ρ c, at2_arg2 m ρ c]
  rfl

set_option maxHeartbeats 4000000 in
theorem keep3_proj : (W3 m ρ c (Proc.devRef .tc main_v26) : S100000x64.Idx → EReal) = W2 m ρ c (Proc.devRef .tc main_v26) :=
  (by after_results_simp : StableHlo.after hostOps1 (W2 m ρ c) (Proc.devRef .tc main_v26) = W2 m ρ c (Proc.devRef .tc main_v26))

set_option maxHeartbeats 4000000 in
theorem keep3_arg1 : (W3 m ρ c (Proc.devRef .tc main_arg1) : S1200000.Idx → BitVec 32) = W2 m ρ c (Proc.devRef .tc main_arg1) :=
  (by after_results_simp : StableHlo.after hostOps1 (W2 m ρ c) (Proc.devRef .tc main_arg1) = W2 m ρ c (Proc.devRef .tc main_arg1))

set_option maxHeartbeats 4000000 in
theorem keep3_arg2 : (W3 m ρ c (Proc.devRef .tc main_arg2) : S1200000.Idx → BitVec 32) = W2 m ρ c (Proc.devRef .tc main_arg2) :=
  (by after_results_simp : StableHlo.after hostOps1 (W2 m ρ c) (Proc.devRef .tc main_arg2) = W2 m ρ c (Proc.devRef .tc main_arg2))

set_option maxHeartbeats 4000000 in
theorem keep3_arg5 : (W3 m ρ c (Proc.devRef .tc main_arg5) : S64x2.Idx → EReal) = W2 m ρ c (Proc.devRef .tc main_arg5) :=
  (by after_results_simp : StableHlo.after hostOps1 (W2 m ρ c) (Proc.devRef .tc main_arg5) = W2 m ρ c (Proc.devRef .tc main_arg5))

set_option maxHeartbeats 4000000 in
theorem keep3_edge : (W3 m ρ c (Proc.devRef .tc main_v21) : S1200000.Idx → EReal) = W2 m ρ c (Proc.devRef .tc main_v21) :=
  (by after_results_simp : StableHlo.after hostOps1 (W2 m ρ c) (Proc.devRef .tc main_v21) = W2 m ρ c (Proc.devRef .tc main_v21))

set_option maxHeartbeats 4000000 in
theorem keep3_self : (W3 m ρ c (Proc.devRef .tc main_v23) : S100000x1.Idx → EReal) = W2 m ρ c (Proc.devRef .tc main_v23) :=
  (by after_results_simp : StableHlo.after hostOps1 (W2 m ρ c) (Proc.devRef .tc main_v23) = W2 m ρ c (Proc.devRef .tc main_v23))

set_option maxHeartbeats 4000000 in
theorem keep3_bias1 : (W3 m ρ c (Proc.devRef .tc main_v24) : S1x64.Idx → EReal) = W2 m ρ c (Proc.devRef .tc main_v24) :=
  (by after_results_simp : StableHlo.after hostOps1 (W2 m ρ c) (Proc.devRef .tc main_v24) = W2 m ρ c (Proc.devRef .tc main_v24))

set_option maxHeartbeats 4000000 in
theorem keep3_bias2 : (W3 m ρ c (Proc.devRef .tc main_v25) : S1x2.Idx → EReal) = W2 m ρ c (Proc.devRef .tc main_v25) :=
  (by after_results_simp : StableHlo.after hostOps1 (W2 m ρ c) (Proc.devRef .tc main_v25) = W2 m ρ c (Proc.devRef .tc main_v25))

theorem at3_proj : (W3 m ρ c (Proc.devRef .tc main_v26) : S100000x64.Idx → EReal) = val_main_v0 (F := Ideal) (m ((c : Thread nD τ).loc main_arg0)) (m ((c : Thread nD τ).loc main_arg3)) :=
  (keep3_proj m ρ c).trans (at2_proj m ρ c)
theorem at3_arg1 : (W3 m ρ c (Proc.devRef .tc main_arg1) : S1200000.Idx → BitVec 32) = (m ((c : Thread nD τ).loc main_arg1)) :=
  (keep3_arg1 m ρ c).trans (at2_arg1 m ρ c)
theorem at3_arg2 : (W3 m ρ c (Proc.devRef .tc main_arg2) : S1200000.Idx → BitVec 32) = (m ((c : Thread nD τ).loc main_arg2)) :=
  (keep3_arg2 m ρ c).trans (at2_arg2 m ρ c)
theorem at3_arg5 : (W3 m ρ c (Proc.devRef .tc main_arg5) : S64x2.Idx → EReal) = (m ((c : Thread nD τ).loc main_arg5)) :=
  (keep3_arg5 m ρ c).trans (at2_arg5 m ρ c)
theorem at3_edge : (W3 m ρ c (Proc.devRef .tc main_v21) : S1200000.Idx → EReal) = val_main_v22 (F := Ideal) (m ((c : Thread nD τ).loc main_arg1)) (m ((c : Thread nD τ).loc main_arg2)) :=
  (keep3_edge m ρ c).trans (at2_edge m ρ c)
theorem at3_self (hc : S100000.ShapeCasts S100000x1) :
    (W3 m ρ c (Proc.devRef .tc main_v23) : S100000x1.Idx → EReal) = shapeCast S100000x1 (val_main_v36 (F := Ideal) (m ((c : Thread nD τ).loc main_arg2))) hc :=
  (keep3_self m ρ c).trans (at2_self m ρ c hc)
theorem at3_bias1 (hr : S64.ShapeCasts S1x64) :
    (W3 m ρ c (Proc.devRef .tc main_v24) : S1x64.Idx → EReal) = shapeCast S1x64 (m ((c : Thread nD τ).loc main_arg4)) hr :=
  (keep3_bias1 m ρ c).trans (at2_bias1 m ρ c hr)
theorem at3_bias2 (hr : S2.ShapeCasts S1x2) :
    (W3 m ρ c (Proc.devRef .tc main_v25) : S1x2.Idx → EReal) = shapeCast S1x2 (m ((c : Thread nD τ).loc main_arg6)) hr :=
  (keep3_bias2 m ρ c).trans (at2_bias2 m ρ c hr)

/-! ## After the second launch: its second result is the second projection of the first layer's closing step; an input array
    of the launch and a buffer it does not touch are as they were -/

/-- The second layer's projected features. -/
theorem at4_proj2 (hc : S100000.ShapeCasts S100000x1) (hr : S64.ShapeCasts S1x64) :
    (W4 m ρ c (Proc.devRef .tc main_v40_1) : S100000x2.Idx → EReal) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 6).trans ((Closing1.result (V3 m ρ) c).trans ?_)
  show product (M := 100000) (K := 64) (N := 2)
      (closing (M := 100000) (N := 64) (W3 m ρ c (Proc.devRef .tc main_v39)) (W3 m ρ c (Proc.devRef .tc main_v26))
        (W3 m ρ c (Proc.devRef .tc main_v23)) (W3 m ρ c (Proc.devRef .tc main_v24)))
      (W3 m ρ c (Proc.devRef .tc main_arg5)) = _
  rw [at3_sum m ρ c, at3_proj m ρ c, at3_self m ρ c hc, at3_bias1 m ρ c hr, at3_arg5 m ρ c]
  exact ((Layers.projection2 _ _ _ _ _ _).trans
    (congrArg (fun z => product (M := 100000) (K := 64) (N := 2) z _) (Layers.closing1 _ _ _ _ _ hc hr))).symm

theorem at4_arg1 : (W4 m ρ c (Proc.devRef .tc main_arg1) : S1200000.Idx → BitVec 32) = (m ((c : Thread nD τ).loc main_arg1)) :=
  (W4_of_ne m ρ c main_arg1 (by decide)).trans (at3_arg1 m ρ c)
theorem at4_arg2 : (W4 m ρ c (Proc.devRef .tc main_arg2) : S1200000.Idx → BitVec 32) = (m ((c : Thread nD τ).loc main_arg2)) :=
  (W4_of_ne m ρ c main_arg2 (by decide)).trans (at3_arg2 m ρ c)
theorem at4_edge : (W4 m ρ c (Proc.devRef .tc main_v21) : S1200000.Idx → EReal) = val_main_v22 (F := Ideal) (m ((c : Thread nD τ).loc main_arg1)) (m ((c : Thread nD τ).loc main_arg2)) :=
  (W4_of_ne m ρ c main_v21 (by decide)).trans (at3_edge m ρ c)
theorem at4_bias2 (hr : S2.ShapeCasts S1x2) :
    (W4 m ρ c (Proc.devRef .tc main_v25) : S1x2.Idx → EReal) = shapeCast S1x2 (m ((c : Thread nD τ).loc main_arg6)) hr :=
  (W4_of_ne m ρ c main_v25 (by decide)).trans (at3_bias2 m ρ c hr)
/-- The self-loop weights are an input of the launch: it reads them and leaves them. -/
theorem at4_self (hc : S100000.ShapeCasts S100000x1) :
    (W4 m ρ c (Proc.devRef .tc main_v23) : S100000x1.Idx → EReal) = shapeCast S100000x1 (val_main_v36 (F := Ideal) (m ((c : Thread nD τ).loc main_arg2))) hc :=
  (W4_arr m ρ c 2).trans (((dat1 (V3 m ρ) c).arrAt_in 2 rfl _).trans ((A_eq1 (V3 m ρ) c 2).trans (at3_self m ρ c hc)))

end Cert.KernelIdeal.Boundary2

end
-- ==== Proof.Closing2.lean ====
/-
  The third launch: the second layer's closing step, block by block, is the whole closing step.
  The grid has 20 points; point `t` is handed rows `5000·t … 5000·t + 4999` of the edge sums, of the projected features
  and of the one-column self-loop weights, and the whole one-row bias, and writes back the same rows of the result.
  Entry `(p, q)` of the written block is the closing value of the four blocks at `(p, q)`, `(p, q)`, `(p, 0)`, `(0, q)`,
  which are the whole arrays at `(5000·t + p, q)`, `(5000·t + p, q)`, `(5000·t + p, 0)`, `(0, q)`: each written block is
  the whole closing step restricted to it, and the 20 blocks cover every row.
-/
import proofs.«113560_j52974126629470_1_alg».proof.Proof.Gen.KernelIdeal.Frame
import proofs.«113560_j52974126629470_1_alg».proof.Proof.Bodies
import proofs.«113560_j52974126629470_1_alg».proof.Proof.Spec
import Idealize.ShloMosaic.Lib.Pipeline.Value
import Idealize.ShloMosaic.Lib.ValueIdx

set_option maxRecDepth 16384

noncomputable section

namespace Cert.KernelIdeal.Closing2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at `(p, q)` is the whole closing step at `i`, when the four blocks hold the whole arrays'
    entries that `i` calls for. -/
theorem block_value (A H : (⟨2, ![100000, 2]⟩ : Shape).Idx → EReal) (D : (⟨2, ![100000, 1]⟩ : Shape).Idx → EReal)
    (B : (⟨2, ![1, 2]⟩ : Shape).Idx → EReal)
    (a h : Vec Ideal S5000x2 .f32) (d : Vec Ideal S5000x1 .f32) (b : Vec Ideal S1x2 .f32)
    (p : Fin 5000) (q : Fin 2) (i : (⟨2, ![100000, 2]⟩ : Shape).Idx)
    (ha : a (ix2 p q) = A i) (hh : h (ix2 p q) = H i)
    (hd : d (ix2 p (0 : Fin 1)) = D (ix2 (i 0) (0 : Fin 1))) (hb : b (ix2 (0 : Fin 1) q) = B (ix2 (0 : Fin 1) (i 1))) :
    k2_pay1 (F := Ideal) d a h b (ix2 p q) = closing A H D B i := by
  rw [Bodies.closing2_at, ha, hh, hd, hb]
  rfl

/-- The block index maps over the grid: the three row-blocked inputs and the result move together down the rows, the bias stays. -/
theorem block_index : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = win2_4.index t (0 : Fin 2)
    ∧ win2_2.index t (1 : Fin 2) = 0
    ∧ win2_3.index t (0 : Fin 2) = 0
    ∧ win2_3.index t (1 : Fin 2) = 0
    ∧ win2_4.index t (1 : Fin 2) = 0 :=
  (by decide +kernel : ∀ t : Fin grid2.N, _)

/-- Every one of the 20 row blocks is some point's. -/
theorem block_onto : ∀ r : Fin 20, ∃ t : Fin cfg2.N, win2_4.index t = ![r.val, 0] :=
  (by decide +kernel : ∀ r : Fin 20, ∃ t : Fin grid2.N, win2_4.index t = ![r.val, 0])

/-- What point `t` writes back is block `t` of the whole closing step of the arrays the launch finds. -/
theorem written (c : Dev nD) (t : Fin cfg2.N) :
    (dat2 V c).flushed 4 t
      = ((cfg2.win 4).blk t).view.read (Elt Ideal)
          (closing (M := 100000) (N := 2) (V c main_v53) (V c main_v40_1) (V c main_v23) (V c main_v25)) := by
  show (cfg2.win 4).cut (grid2.coords t) ((dat2 V c).after 4 t) = _
  rw [after2_4]
  unfold out2_4
  rw [View.canon_unit_zero origin]
  simp only [View.ld_unit_zero (S := S5000x1) origin, View.ld_unit_zero (S := S5000x2) origin,
    View.ld_unit_zero (S := S1x2) origin]
  funext j
  obtain ⟨p, q, rfl⟩ : ∃ (p : Fin 5000) (q : Fin 2), j = ix2 p q := ⟨j 0, j 1, eq_ix2 j⟩
  obtain ⟨e0, e1, e2, e3, e4, e5, e6, e7, e8⟩ := block_index t
  show k2_pay1 (iblk2 V c 2 t) (iblk2 V c 0 t) (iblk2 V c 1 t) (iblk2 V c 3 t) (ix2 p q)
    = closing (M := 100000) (N := 2) (V c main_v53) (V c main_v40_1) (V c main_v23) (V c main_v25)
        (((cfg2.win 4).blk t).view.emb (ix2 p q))
  refine block_value (V c main_v53) (V c main_v40_1) (V c main_v23) (V c main_v25) _ _ _ _ p q _ ?_ ?_ ?_ ?_
  · refine congrArg (V c main_v53) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 2 + 1 * q.val = win2_4.index t (1 : Fin 2) * 2 + 1 * q.val; omega
  · refine congrArg (V c main_v40_1) (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 2 + 1 * q.val = win2_4.index t (1 : Fin 2) * 2 + 1 * q.val; omega
  · refine congrArg (V c main_v23) (funext fun a => Fin.ext ?_)
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  · refine congrArg (V c main_v25) (funext fun a => Fin.ext ?_)
    match a with
    | ⟨0, _⟩ => show win2_3.index t (0 : Fin 2) * 1 + 1 * 0 = 0; omega
    | ⟨1, _⟩ => show win2_3.index t (1 : Fin 2) * 2 + 1 * q.val = win2_4.index t (1 : Fin 2) * 2 + 1 * q.val; omega

/-- An index of the result array is in point `t`'s block iff each coordinate is in the block's range on its axis. -/
theorem mem_block (t : Fin cfg2.N) (i : S100000x2.Idx) :
    i ∈ ((cfg2.win 4).blk t).view.set
      ↔ ∀ a : Fin 2, win2_4.index t a * S5000x2.size a ≤ (i a).val ∧ (i a).val < win2_4.index t a * S5000x2.size a + S5000x2.size a := by
  show i ∈ ((View.whole main_v54).slice (win2_4.rect t)).set ↔ _
  rw [View.set_slice_whole, Rect.mem_set_unit]
  exact Iff.rfl

/-- Every index of the result array is in some point's block: row `r` is in block `r / 5000`. -/
theorem covered (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ := block_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 2 ≤ (i 1).val ∧ (i 1).val < win2_4.index t (1 : Fin 2) * 2 + 2; omega

/-- The result array after the launch is the whole closing step of the arrays the launch finds. -/
theorem result (c : Dev nD) :
    (dat2 V c).arrAt 4 cfg2.N
      = closing (M := 100000) (N := 2) (V c main_v53) (V c main_v40_1) (V c main_v23) (V c main_v25) :=
  (dat2 V c).arrAt_eq_of_cover 4 _ (fun t _ => written V c t) covered

end Cert.KernelIdeal.Closing2

end
-- ==== Proof.Boundary3.lean ====
/-
  The kernel's buffers after its last host stretch and after the last launch: the result.
  The last stretch gathers, scales and scatter-adds the second layer's projected features with the same edge weights
  (the reference computes those weights a second time, by the same operations of the same arguments): the second layer's
  edge sums are the reference's. The last launch leaves the closing step of those sums, the projected features, the
  self-loop weights and the second bias: the reference's result.
-/
import proofs.«113560_j52974126629470_1_alg».proof.Proof.Boundary2
import proofs.«113560_j52974126629470_1_alg».proof.Proof.Closing2

set_option maxRecDepth 16384

noncomputable section

namespace Cert.KernelIdeal.Boundary3

open Cert.KernelIdeal Cert.KernelIdeal.Gen Cert.Gcn
open Idealize.ShloMosaic Idealize.ShloMosaic.TcCoe Idealize.SL.Sem Idealize.ShloMosaic.StableHlo
open Cert.ReferenceIdeal.Read (val_main_v0 val_main_v22 val_main_v35 val_main_v36 val_main_v44 val_main_v45 val_main_v80 val_main_v89)
open Cert.ReferenceIdeal (Layers.projection1 Layers.closing1 Layers.projection2 Layers.closing2)

variable (m : (ℓ : Loc nD τ sig) → Buf (Elt Ideal) ℓ) (ρ : Dev nD → PrngReg) (c : Dev nD)

open Cert.KernelIdeal.Boundary2

/-! ## After the last host stretch -/

set_option maxHeartbeats 4000000 in
/-- The second layer's edge sums. -/
theorem at5_sum (hc : S100000.ShapeCasts S100000x1) (hr : S64.ShapeCasts S1x64) :
    (W5 m ρ c (Proc.devRef .tc main_v53) : S100000x2.Idx → EReal) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v53) = _
  after_results_simp
  rw [at4_proj2 m ρ c hc hr, at4_edge m ρ c, at4_arg1 m ρ c, at4_arg2 m ρ c]
  rfl

set_option maxHeartbeats 4000000 in
theorem keep5_proj2 : (W5 m ρ c (Proc.devRef .tc main_v40_1) : S100000x2.Idx → EReal) = W4 m ρ c (Proc.devRef .tc main_v40_1) :=
  (by after_results_simp : StableHlo.after hostOps2 (W4 m ρ c) (Proc.devRef .tc main_v40_1) = W4 m ρ c (Proc.devRef .tc main_v40_1))

set_option maxHeartbeats 4000000 in
theorem keep5_self : (W5 m ρ c (Proc.devRef .tc main_v23) : S100000x1.Idx → EReal) = W4 m ρ c (Proc.devRef .tc main_v23) :=
  (by after_results_simp : StableHlo.after hostOps2 (W4 m ρ c) (Proc.devRef .tc main_v23) = W4 m ρ c (Proc.devRef .tc main_v23))

set_option maxHeartbeats 4000000 in
theorem keep5_bias2 : (W5 m ρ c (Proc.devRef .tc main_v25) : S1x2.Idx → EReal) = W4 m ρ c (Proc.devRef .tc main_v25) :=
  (by after_results_simp : StableHlo.after hostOps2 (W4 m ρ c) (Proc.devRef .tc main_v25) = W4 m ρ c (Proc.devRef .tc main_v25))

theorem at5_proj2 (hc : S100000.ShapeCasts S100000x1) (hr : S64.ShapeCasts S1x64) :
    (W5 m ρ c (Proc.devRef .tc main_v40_1) : S100000x2.Idx → EReal) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (keep5_proj2 m ρ c).trans (at4_proj2 m ρ c hc hr)
theorem at5_self (hc : S100000.ShapeCasts S100000x1) :
    (W5 m ρ c (Proc.devRef .tc main_v23) : S100000x1.Idx → EReal) = shapeCast S100000x1 (val_main_v36 (F := Ideal) (m ((c : Thread nD τ).loc main_arg2))) hc :=
  (keep5_self m ρ c).trans (at4_self m ρ c hc)
theorem at5_bias2 (hr : S2.ShapeCasts S1x2) :
    (W5 m ρ c (Proc.devRef .tc main_v25) : S1x2.Idx → EReal) = shapeCast S1x2 (m ((c : Thread nD τ).loc main_arg6)) hr :=
  (keep5_bias2 m ρ c).trans (at4_bias2 m ρ c hr)

/-! ## After the last launch -/

/-- The kernel's result array is the reference's result, as functions of the seven argument arrays. -/
theorem result (hc : S100000.ShapeCasts S100000x1) (hr1 : S64.ShapeCasts S1x64) (hr2 : S2.ShapeCasts S1x2) :
    (W6 m ρ c (Proc.devRef .tc main_v54) : S100000x2.Idx → EReal) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 4).trans ((Closing2.result (V5 m ρ) c).trans ?_)
  show closing (M := 100000) (N := 2) (W5 m ρ c (Proc.devRef .tc main_v53)) (W5 m ρ c (Proc.devRef .tc main_v40_1))
      (W5 m ρ c (Proc.devRef .tc main_v23)) (W5 m ρ c (Proc.devRef .tc main_v25)) = _
  rw [at5_sum m ρ c hc hr1, at5_proj2 m ρ c hc hr1, at5_self m ρ c hc, at5_bias2 m ρ c hr2]
  exact (Layers.closing2 _ _ _ _ _ _ _ hc hr2).symm

end Cert.KernelIdeal.Boundary3

end
-- ==== Proof.lean ====
/-
  A two-layer graph convolution: the tiled kernel against the plain reference, over the exact extended reals.
  Each layer is `relu ((edge sum of h) + h · d + b)` with `h` the layer input times a weight matrix, `d` each node's
  self-loop weight and `b` a bias; the edge sums gather a row of `h` per edge, scale it by the edge's weight and add it into
  the edge's destination row. Both programs compute the node degrees, the weights and the edge sums by the same host
  operations of the same arguments. They differ in the dense steps: the kernel cuts the 100000 nodes into 20 blocks of
  5000 rows and runs three grid launches (the first projection; the first layer's closing step fused with the second
  projection; the second layer's closing step), where the reference applies one operation to whole arrays. A block of
  rows of a product, or of a pointwise step, is that product, or step, of the whole arrays restricted to the block, and
  the blocks cover every row; a change of float format is the identity at the exact instance, and a matrix product into a
  zero accumulator is the plain contraction sum. So every launch leaves the whole-array function (Projection, Closing1,
  Closing2), every boundary of the kernel's run holds the reference's stage (Boundary1-3), and the two results are one
  function of the seven argument arrays. No law of arithmetic beyond these is used, and the precondition is never opened.
  The frames are the generated ones; the ideal pass rewrote nothing, so there is nothing to preserve.
-/
import proofs.«113560_j52974126629470_1_alg».proof.Defs
import proofs.«113560_j52974126629470_1_alg».proof.Proof.Gen.Kernel
import proofs.«113560_j52974126629470_1_alg».proof.Proof.Gen.Kernel.Frame
import proofs.«113560_j52974126629470_1_alg».proof.Proof.Gen.KernelIdeal
import proofs.«113560_j52974126629470_1_alg».proof.Proof.Gen.KernelIdeal.Frame
import proofs.«113560_j52974126629470_1_alg».proof.Proof.Gen.ReferenceIdeal
import proofs.«113560_j52974126629470_1_alg».proof.Proof.Gen.Pre_finite_inputs
import proofs.«113560_j52974126629470_1_alg».proof.Proof.Gen.ReferenceIdeal.Run
import proofs.«113560_j52974126629470_1_alg».proof.Proof.Gen.ReferenceIdeal.Read
import proofs.«113560_j52974126629470_1_alg».proof.Proof.KernelRun
import proofs.«113560_j52974126629470_1_alg».proof.Proof.Boundary3

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the reference's last stage of the kernel's seven argument arrays: the kernel's
    because every boundary of its run holds the reference's stage, the reference's because its run's term is that stage and
    its arguments are the kernel's. -/
theorem algebraic : Cert.algebraic_KernelIdeal_ReferenceIdeal := by
  intro m ρ m' ρ' _ hagree
  refine ⟨fun c => Cert.ReferenceIdeal.Read.val_main_v89 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundary3.result m ρ c
          Cert.KernelIdeal.Facts₀.shapeCasts_S100000_S100000x1 Cert.KernelIdeal.Facts₀.shapeCasts_S64_S1x64
          Cert.KernelIdeal.Facts₀.shapeCasts_S2_S1x2), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
